-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x512 : Shape := ⟨3, ![128, 1024, 512]⟩
abbrev S1x64x512 : Shape := ⟨3, ![1, 64, 512]⟩
abbrev S512x512 : Shape := ⟨2, ![512, 512]⟩
abbrev S512 : Shape := ⟨1, ![512]⟩
abbrev S_ : Shape := ⟨0, ![]⟩

class Facts : Prop where
  bcast_S_S128x1024x512 : S_.BroadcastsInDim S128x1024x512 (![] : Fin 0 → Fin S128x1024x512.rank)
  reducesTo_S128x1024x512_S_d0_1_2 : S128x1024x512.ReducesTo [0, 1, 2] S_
  h_S_ : 0 < S_.numel
  bcast_S_S1x64x512 : S_.BroadcastsInDim S1x64x512 (![] : Fin 0 → Fin S1x64x512.rank)
  reducesTo_S1x64x512_S_d0_1_2 : S1x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S128x1024x512 .f32) (main_arg1 : FVec F S128x1024x512 .f32) (main_arg2 : FVec F S1x64x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S128x1024x512 .f32 := Host.absf main_arg0
  let main_cst : FVec F S_ .f32 := constant S_ .f32 0x7F800000#32
  let main_v1 : FVec F S128x1024x512 .f32 := broadcastInDim S128x1024x512 ![] bcast_S_S128x1024x512 main_cst
  let main_v2 : IVec S128x1024x512 1 := cmpf .olt main_v0 main_v1
  let main_c : IVec S_ 1 := constantI S_ 1 1#1
  let main_v3 : IVec S_ 1 := (fun x v => Host.reduce IntOp.andi x v reducesTo_S128x1024x512_S_d0_1_2 h_S_) main_v2 main_c
  let main_v4 : FVec F S128x1024x512 .f32 := Host.absf main_arg1
  let main_cst_0 : FVec F S_ .f32 := constant S_ .f32 0x7F800000#32
  let main_v5 : FVec F S128x1024x512 .f32 := broadcastInDim S128x1024x512 ![] bcast_S_S128x1024x512 main_cst_0
  let main_v6 : IVec S128x1024x512 1 := cmpf .olt main_v4 main_v5
  let main_c_1 : IVec S_ 1 := constantI S_ 1 1#1
  let main_v7 : IVec S_ 1 := (fun x v => Host.reduce IntOp.andi x v reducesTo_S128x1024x512_S_d0_1_2 h_S_) main_v6 main_c_1
  let main_v8 : IVec S_ 1 := andi main_v3 main_v7
  let main_v9 : FVec F S1x64x512 .f32 := Host.absf main_arg2
  let main_cst_2 : FVec F S_ .f32 := constant S_ .f32 0x7F800000#32
  let main_v10 : FVec F S1x64x512 .f32 := broadcastInDim S1x64x512 ![] bcast_S_S1x64x512 main_cst_2
  let main_v11 : IVec S1x64x512 1 := cmpf .olt main_v9 main_v10
  let main_c_3 : IVec S_ 1 := constantI S_ 1 1#1
  let main_v12 : IVec S_ 1 := (fun x v => Host.reduce IntOp.andi x v reducesTo_S1x64x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S128x1024x512 : Shape := ⟨3, ![128, 1024, 512]⟩
abbrev S1x64x512 : Shape := ⟨3, ![1, 64, 512]⟩
abbrev S512x512 : Shape := ⟨2, ![512, 512]⟩
abbrev S512 : Shape := ⟨1, ![512]⟩
abbrev S128x64x512 : Shape := ⟨3, ![128, 64, 512]⟩
abbrev S128x64x1024 : Shape := ⟨3, ![128, 64, 1024]⟩
abbrev S1x1024x512 : Shape := ⟨3, ![1, 1024, 512]⟩
abbrev S1x64x1024 : Shape := ⟨3, ![1, 64, 1024]⟩
abbrev S1024x512 : Shape := ⟨2, ![1024, 512]⟩
abbrev S1x512 : Shape := ⟨2, ![1, 512]⟩
abbrev S64x512 : Shape := ⟨2, ![64, 512]⟩
abbrev S512x1024 : Shape := ⟨2, ![512, 1024]⟩
abbrev S64x1024 : Shape := ⟨2, ![64, 1024]⟩
abbrev S64 : Shape := ⟨1, ![64]⟩
abbrev S64x1 : Shape := ⟨2, ![64, 1]⟩
abbrev S1 : Shape := ⟨1, ![1]⟩
abbrev S1x1 : Shape := ⟨2, ![1, 1]⟩

abbrev nBuf : Space → Nat
  | .hbm => 11
  | .vmem => 15
  | .smem => 0
  | _ => 0

abbrev bufTy : (tb : Table) → Fin (tcTables nBuf tb) → BufTy
  | .hbm, ⟨0, _⟩ => ⟨S128x1024x512, .f32⟩
  | .hbm, ⟨1, _⟩ => ⟨S128x1024x512, .f32⟩
  | .hbm, ⟨2, _⟩ => ⟨S1x64x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S128x64x512, .f32⟩
  | .hbm, ⟨10, _⟩ => ⟨S128x64x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x64x512, .f32⟩
  | .local _ .vmem, ⟨5, _⟩ => ⟨S512x512, .f32⟩
  | .local _ .vmem, ⟨6, _⟩ => ⟨S512, .f32⟩
  | .local _ .vmem, ⟨7, _⟩ => ⟨S512x512, .f32⟩
  | .local _ .vmem, ⟨8, _⟩ => ⟨S512, .f32⟩
  | .local _ .vmem, ⟨9, _⟩ => ⟨S512x512, .f32⟩
  | .local _ .vmem, ⟨10, _⟩ => ⟨S512, .f32⟩
  | .local _ .vmem, ⟨11, _⟩ => ⟨S1x64x512, .f32⟩
  | .local _ .vmem, ⟨12, _⟩ => ⟨S1x64x512, .f32⟩
  | .local _ .vmem, ⟨13, _⟩ => ⟨S1x64x1024, .f32⟩
  | .local _ .vmem, ⟨14, _⟩ => ⟨S1x64x1024, .f32⟩
  | _, _ => ⟨S128x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  transposes_S1024x512_p1_0_S512x1024 : S1024x512.Transposes [1, 0] S512x1024
  reduces_S64x1024_S64 : S64x1024.Reduces [1] S64
  shapeCasts_S64_S64x1 : S64.ShapeCasts S64x1
  reduces_S64x1_S1 : S64x1.Reduces [0] S1
  shapeCasts_S1_S1x1 : S1.ShapeCasts S1x1
  broadcasts_S64x1_S64x1024 : S64x1.Broadcasts S64x1024
  broadcasts_S1x1_S64x1024 : S1x1.Broadcasts S64x1024
  shapeCasts_S64x512_S1x64x512 : S64x512.ShapeCasts S1x64x512
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S1024x512_S512x512_S1024x512_1_0_0_1_n_n_wf : DotDims.WF S1024x512 S512x512 S1024x512 [1] [0] [0] [1] [] []
  dot_S64x512_S512x1024_S64x1024_1_0_0_1_n_n_wf : DotDims.WF S64x512 S512x1024 S64x1024 [1] [0] [0] [1] [] []
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S128x1024x512.size a
  hwx0_0 : ∀ i : grid0.Coords, EltTy.bits .f32 = 32 ∨ (Rect.block (s := S128x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S128x1024x512.size a
  hwx0_1 : ∀ i : grid0.Coords, EltTy.bits .f32 = 32 ∨ (Rect.block (s := S128x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S1x64x512.size a
  hwx0_2 : ∀ i : grid0.Coords, EltTy.bits .f32 = 32 ∨ (Rect.block (s := S1x64x512) S1x64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x512.size a ≤ S128x64x512.size a
  hwx0_9 : ∀ i : grid0.Coords, EltTy.bits .f32 = 32 ∨ (Rect.block (s := S128x64x512) S1x64x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x1024.size a ≤ S128x64x1024.size a
  hwx0_10 : ∀ i : grid0.Coords, EltTy.bits .f32 = 32 ∨ (Rect.block (s := S128x64x1024) S1x64x1024.size (cc0_transform_10 i) (hinb0_10 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1x64x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1x64x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S128x1024x512 : Shape := ⟨3, ![128, 1024, 512]⟩
abbrev S1x64x512 : Shape := ⟨3, ![1, 64, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S128x64x512 : Shape := ⟨3, ![128, 64, 512]⟩
abbrev S128x64x1024 : Shape := ⟨3, ![128, 64, 1024]⟩
abbrev S128x64 : Shape := ⟨2, ![128, 64]⟩
abbrev S128x64x1 : Shape := ⟨3, ![128, 64, 1]⟩
abbrev S128 : Shape := ⟨1, ![128]⟩
abbrev S128x1x1 : Shape := ⟨3, ![128, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S128x1024x512, .f32⟩
  | .hbm, ⟨1, _⟩ => ⟨S128x1024x512, .f32⟩
  | .hbm, ⟨2, _⟩ => ⟨S1x64x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S128x1024x512, .f32⟩
  | .hbm, ⟨10, _⟩ => ⟨S1x1x512, .f32⟩
  | .hbm, ⟨11, _⟩ => ⟨S128x1024x512, .f32⟩
  | .hbm, ⟨12, _⟩ => ⟨S128x1024x512, .f32⟩
  | .hbm, ⟨13, _⟩ => ⟨S_, .f32⟩
  | .hbm, ⟨14, _⟩ => ⟨S128x1024x512, .f32⟩
  | .hbm, ⟨15, _⟩ => ⟨S128x1024x512, .f32⟩
  | .hbm, ⟨16, _⟩ => ⟨S128x1024x512, .f32⟩
  | .hbm, ⟨17, _⟩ => ⟨S1x1x512, .f32⟩
  | .hbm, ⟨18, _⟩ => ⟨S128x1024x512, .f32⟩
  | .hbm, ⟨19, _⟩ => ⟨S128x1024x512, .f32⟩
  | .hbm, ⟨20, _⟩ => ⟨S_, .f32⟩
  | .hbm, ⟨21, _⟩ => ⟨S128x1024x512, .f32⟩
  | .hbm, ⟨22, _⟩ => ⟨S128x1024x512, .f32⟩
  | .hbm, ⟨23, _⟩ => ⟨S128x1024x512, .f32⟩
  | .hbm, ⟨24, _⟩ => ⟨S1x1x512, .f32⟩
  | .hbm, ⟨25, _⟩ => ⟨S128x1024x512, .f32⟩
  | .hbm, ⟨26, _⟩ => ⟨S128x1024x512, .f32⟩
  | .hbm, ⟨27, _⟩ => ⟨S128x64x512, .f32⟩
  | .hbm, ⟨28, _⟩ => ⟨S128x64x1024, .f32⟩
  | .hbm, ⟨29, _⟩ => ⟨S_, .f32⟩
  | .hbm, ⟨30, _⟩ => ⟨S128x64x1024, .f32⟩
  | .hbm, ⟨31, _⟩ => ⟨S128x64x1024, .f32⟩
  | .hbm, ⟨32, _⟩ => ⟨S_, .f32⟩
  | .hbm, ⟨33, _⟩ => ⟨S128x64, .f32⟩
  | .hbm, ⟨34, _⟩ => ⟨S128x64x1, .f32⟩
  | .hbm, ⟨35, _⟩ => ⟨S_, .f32⟩
  | .hbm, ⟨36, _⟩ => ⟨S128, .f32⟩
  | .hbm, ⟨37, _⟩ => ⟨S128x1x1, .f32⟩
  | .hbm, ⟨38, _⟩ => ⟨S128x64x1024, .f32⟩
  | .hbm, ⟨39, _⟩ => ⟨S128x64x1024, .f32⟩
  | .hbm, ⟨40, _⟩ => ⟨S128x64x1024, .f32⟩
  | .hbm, ⟨41, _⟩ => ⟨S128x64x1024, .f32⟩
  | .hbm, ⟨42, _⟩ => ⟨S128x64x1024, .f32⟩
  | .hbm, ⟨43, _⟩ => ⟨S128x64x1024, .f32⟩
  | .hbm, ⟨44, _⟩ => ⟨S_, .f32⟩
  | .hbm, ⟨45, _⟩ => ⟨S128x64x1024, .f32⟩
  | .hbm, ⟨46, _⟩ => ⟨S128x64x1024, .f32⟩
  | .hbm, ⟨47, _⟩ => ⟨S_, .f32⟩
  | .hbm, ⟨48, _⟩ => ⟨S128x64x1024, .f32⟩
  | .hbm, ⟨49, _⟩ => ⟨S128x64x1024, .f32⟩
  | .hbm, ⟨50, _⟩ => ⟨S_, .f32⟩
  | .hbm, ⟨51, _⟩ => ⟨S128x64, .f32⟩
  | .hbm, ⟨52, _⟩ => ⟨S128x64x1, .f32⟩
  | .hbm, ⟨53, _⟩ => ⟨S_, .f32⟩
  | .hbm, ⟨54, _⟩ => ⟨S128x64x1, .f32⟩
  | .hbm, ⟨55, _⟩ => ⟨S128x64x1, .f32⟩
  | .hbm, ⟨56, _⟩ => ⟨S128x64x1024, .f32⟩
  | .hbm, ⟨57, _⟩ => ⟨S128x64x1024, .f32⟩
  | .hbm, ⟨58, _⟩ => ⟨S128x64x512, .f32⟩
  | .hbm, ⟨59, _⟩ => ⟨S128x64x1024, .f32⟩
  | .hbm, ⟨60, _⟩ => ⟨S_, .f32⟩
  | .hbm, ⟨61, _⟩ => ⟨S128x64x1024, .f32⟩
  | .hbm, ⟨62, _⟩ => ⟨S128x64x1024, .f32⟩
  | .hbm, ⟨63, _⟩ => ⟨S_, .f32⟩
  | .hbm, ⟨64, _⟩ => ⟨S128x64, .f32⟩
  | .hbm, ⟨65, _⟩ => ⟨S128x64x1, .f32⟩
  | .hbm, ⟨66, _⟩ => ⟨S_, .f32⟩
  | .hbm, ⟨67, _⟩ => ⟨S128, .f32⟩
  | .hbm, ⟨68, _⟩ => ⟨S128x1x1, .f32⟩
  | .hbm, ⟨69, _⟩ => ⟨S128x64x1024, .f32⟩
  | .hbm, ⟨70, _⟩ => ⟨S128x64x1024, .f32⟩
  | .hbm, ⟨71, _⟩ => ⟨S128x64x1024, .f32⟩
  | .hbm, ⟨72, _⟩ => ⟨S128x64x1024, .f32⟩
  | .hbm, ⟨73, _⟩ => ⟨S128x64x1024, .f32⟩
  | .hbm, ⟨74, _⟩ => ⟨S128x64x1024, .f32⟩
  | .hbm, ⟨75, _⟩ => ⟨S_, .f32⟩
  | .hbm, ⟨76, _⟩ => ⟨S128x64x1024, .f32⟩
  | .hbm, ⟨77, _⟩ => ⟨S128x64x1024, .f32⟩
  | .hbm, ⟨78, _⟩ => ⟨S_, .f32⟩
  | .hbm, ⟨79, _⟩ => ⟨S128x64x1024, .f32⟩
  | .hbm, ⟨80, _⟩ => ⟨S128x64x1024, .f32⟩
  | .hbm, ⟨81, _⟩ => ⟨S_, .f32⟩
  | .hbm, ⟨82, _⟩ => ⟨S128x64, .f32⟩
  | .hbm, ⟨83, _⟩ => ⟨S128x64x1, .f32⟩
  | .hbm, ⟨84, _⟩ => ⟨S_, .f32⟩
  | .hbm, ⟨85, _⟩ => ⟨S128x64x1, .f32⟩
  | .hbm, ⟨86, _⟩ => ⟨S128x64x1, .f32⟩
  | .hbm, ⟨87, _⟩ => ⟨S128x64x1024, .f32⟩
  | .hbm, ⟨88, _⟩ => ⟨S128x64x1024, .f32⟩
  | .hbm, ⟨89, _⟩ => ⟨S128x64x512, .f32⟩
  | .hbm, ⟨90, _⟩ => ⟨S128x64x1024, .f32⟩
  | .hbm, ⟨91, _⟩ => ⟨S_, .f32⟩
  | .hbm, ⟨92, _⟩ => ⟨S128x64x1024, .f32⟩
  | .hbm, ⟨93, _⟩ => ⟨S128x64x1024, .f32⟩
  | .hbm, ⟨94, _⟩ => ⟨S_, .f32⟩
  | .hbm, ⟨95, _⟩ => ⟨S128x64, .f32⟩
  | .hbm, ⟨96, _⟩ => ⟨S128x64x1, .f32⟩
  | .hbm, ⟨97, _⟩ => ⟨S_, .f32⟩
  | .hbm, ⟨98, _⟩ => ⟨S128, .f32⟩
  | .hbm, ⟨99, _⟩ => ⟨S128x1x1, .f32⟩
  | .hbm, ⟨100, _⟩ => ⟨S128x64x1024, .f32⟩
  | .hbm, ⟨101, _⟩ => ⟨S128x64x1024, .f32⟩
  | .hbm, ⟨102, _⟩ => ⟨S128x64x1024, .f32⟩
  | .hbm, ⟨103, _⟩ => ⟨S128x64x1024, .f32⟩
  | .hbm, ⟨104, _⟩ => ⟨S128x64x1024, .f32⟩
  | .hbm, ⟨105, _⟩ => ⟨S128x64x1024, .f32⟩
  | .hbm, ⟨106, _⟩ => ⟨S_, .f32⟩
  | .hbm, ⟨107, _⟩ => ⟨S128x64x1024, .f32⟩
  | .hbm, ⟨108, _⟩ => ⟨S128x64x1024, .f32⟩
  | .hbm, ⟨109, _⟩ => ⟨S_, .f32⟩
  | .hbm, ⟨110, _⟩ => ⟨S128x64x1024, .f32⟩
  | .hbm, ⟨111, _⟩ => ⟨S128x64x1024, .f32⟩
  | .hbm, ⟨112, _⟩ => ⟨S_, .f32⟩
  | .hbm, ⟨113, _⟩ => ⟨S128x64, .f32⟩
  | .hbm, ⟨114, _⟩ => ⟨S128x64x1, .f32⟩
  | .hbm, ⟨115, _⟩ => ⟨S_, .f32⟩
  | .hbm, ⟨116, _⟩ => ⟨S128x64x1, .f32⟩
  | .hbm, ⟨117, _⟩ => ⟨S128x64x1, .f32⟩
  | .hbm, ⟨118, _⟩ => ⟨S128x64x1024, .f32⟩
  | .hbm, ⟨119, _⟩ => ⟨S128x64x1024, .f32⟩
  | .hbm, ⟨120, _⟩ => ⟨S128x64x512, .f32⟩
  | _, _ => ⟨S128x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S128x1024x512_0_1_2 : S1x1x512.BroadcastsInDim S128x1024x512 (![0, 1, 2] : Fin 3 → Fin S128x1024x512.rank)
  bcast_S_S128x1024x512 : S_.BroadcastsInDim S128x1024x512 (![] : Fin 0 → Fin S128x1024x512.rank)
  bcast_S1x64x512_S128x64x512_0_1_2 : S1x64x512.BroadcastsInDim S128x64x512 (![0, 1, 2] : Fin 3 → Fin S128x64x512.rank)
  bcast_S_S128x64x1024 : S_.BroadcastsInDim S128x64x1024 (![] : Fin 0 → Fin S128x64x1024.rank)
  reducesTo_S128x64x1024_S128x64_d2 : S128x64x1024.ReducesTo [2] S128x64
  h_S_ : 0 < S_.numel
  bcast_S128x64_S128x64x1_0_1 : S128x64.BroadcastsInDim S128x64x1 (![0, 1] : Fin 2 → Fin S128x64x1.rank)
  reducesTo_S128x64x1024_S128_d1_2 : S128x64x1024.ReducesTo [1, 2] S128
  bcast_S128_S128x1x1_0 : S128.BroadcastsInDim S128x1x1 (![0] : Fin 1 → Fin S128x1x1.rank)
  bcast_S128x64x1_S128x64x1024_0_1_2 : S128x64x1.BroadcastsInDim S128x64x1024 (![0, 1, 2] : Fin 3 → Fin S128x64x1024.rank)
  bcast_S128x1x1_S128x64x1024_0_1_2 : S128x1x1.BroadcastsInDim S128x64x1024 (![0, 1, 2] : Fin 3 → Fin S128x64x1024.rank)
  bcast_S_S128x64x1 : S_.BroadcastsInDim S128x64x1 (![] : Fin 0 → Fin S128x64x1.rank)
  dot_S128x1024x512_S512x512_S128x1024x512_2_1_01_0_n_n_wf : DotDims.WF S128x1024x512 S512x512 S128x1024x512 [2] [1] [0, 1] [0] [] []
  dot_S128x64x512_S128x1024x512_S128x64x1024_2_2_1_1_0_0_wf : DotDims.WF S128x64x512 S128x1024x512 S128x64x1024 [2] [2] [1] [1] [0] [0]
  dot_S128x64x1024_S128x1024x512_S128x64x512_2_1_1_2_0_0_wf : DotDims.WF S128x64x1024 S128x1024x512 S128x64x512 [2] [1] [1] [2] [0] [0]

variable [Facts₀]

def dot_S128x1024x512_S512x512_S128x1024x512_2_1_01_0_n_n : DotDims S128x1024x512 S512x512 S128x1024x512 where
  lhsContracting := [2]
  rhsContracting := [1]
  lhsNonContracting := [0, 1]
  rhsNonContracting := [0]
  lhsBatch := []
  rhsBatch := []
  wf := dot_S128x1024x512_S512x512_S128x1024x512_2_1_01_0_n_n_wf
def dot_S128x64x512_S128x1024x512_S128x64x1024_2_2_1_1_0_0 : DotDims S128x64x512 S128x1024x512 S128x64x1024 where
  lhsContracting := [2]
  rhsContracting := [2]
  lhsNonContracting := [1]
  rhsNonContracting := [1]
  lhsBatch := [0]
  rhsBatch := [0]
  wf := dot_S128x64x512_S128x1024x512_S128x64x1024_2_2_1_1_0_0_wf
def dot_S128x64x1024_S128x1024x512_S128x64x512_2_1_1_2_0_0 : DotDims S128x64x1024 S128x1024x512 S128x64x512 where
  lhsContracting := [2]
  rhsContracting := [1]
  lhsNonContracting := [1]
  rhsNonContracting := [2]
  lhsBatch := [0]
  rhsBatch := [0]
  wf := dot_S128x64x1024_S128x1024x512_S128x64x512_2_1_1_2_0_0_wf

class Facts : Prop extends Facts₀ where

variable [Facts]
-- ==== Proof.SlotAttention.lean ====
/-
  Slot attention over one batch element, as exact arithmetic on the extended reals.

  A batch element carries N = 1024 tokens of width D = 512 and S = 64 slots.  The tokens go through three dense
  layers (x ↦ x·Wᵀ + b, the first two followed by max(·, 0)) to give the keys; each slot's logits against the keys
  are scaled by a fixed constant; the logits are renormalised — divided by their row sum and multiplied by the sum of
  the whole S × N table — and passed through the logistic function, which gives the attention table; and each slot's
  update is the average of the value rows weighted by its attention row divided by (its row sum + ε).

  Everything is stated index by index over Fin-indexed tables, with the two constants kept as the binary words the
  programs spell them with: they are never evaluated, only compared.
-/
import Idealize.ShloMosaic.PureOps.Ideal
import Idealize.ShloMosaic.Lib.ValueIdx

noncomputable section

open scoped BigOperators

namespace Cert.SlotAttention

open Idealize.ShloMosaic Idealize.ShloMosaic.ValueIdx

/-- The logit scale, the single-precision word both programs write for 512^(-1/2). -/
abbrev scale : EReal := Ideal.ofBits .f32 0x3D3504F3#32

/-- The ε added to each attention row sum, the single-precision word both programs write for 1e-8. -/
abbrev eps : EReal := Ideal.ofBits .f32 0x322BCC77#32

/-- A dense layer: row n of X against row e of W, plus the bias at e. -/
def dense (X : Fin 1024 → Fin 512 → EReal) (W : Fin 512 → Fin 512 → EReal) (β : Fin 512 → EReal) :
    Fin 1024 → Fin 512 → EReal :=
  fun n e => (∑ d : Fin 512, X n d * W e d) + β e

/-- The positive part, entry by entry. -/
def relu (Y : Fin 1024 → Fin 512 → EReal) : Fin 1024 → Fin 512 → EReal := fun n e => max (Y n e) 0

/-- The keys: three dense layers, the first two rectified. -/
def keys (X : Fin 1024 → Fin 512 → EReal) (W₁ : Fin 512 → Fin 512 → EReal) (β₁ : Fin 512 → EReal)
    (W₂ : Fin 512 → Fin 512 → EReal) (β₂ : Fin 512 → EReal) (W₃ : Fin 512 → Fin 512 → EReal) (β₃ : Fin 512 → EReal) :
    Fin 1024 → Fin 512 → EReal :=
  dense (relu (dense (relu (dense X W₁ β₁)) W₂ β₂)) W₃ β₃

/-- The scaled logits of slot i against key j. -/
def logits (Q : Fin 64 → Fin 512 → EReal) (K : Fin 1024 → Fin 512 → EReal) : Fin 64 → Fin 1024 → EReal :=
  fun i j => (∑ d : Fin 512, Q i d * K j d) * scale

/-- The attention table: each logit over its row sum, times the sum of the whole table, through the logistic. -/
def attention (L : Fin 64 → Fin 1024 → EReal) : Fin 64 → Fin 1024 → EReal :=
  fun i j => Ideal.logistic (Ideal.div (L i j) (∑ j' : Fin 1024, L i j') * ∑ i' : Fin 64, ∑ j' : Fin 1024, L i' j')

/-- The slot updates: the value rows averaged with weights A i j / (Σ_j' A i j' + ε). -/
def updates (A : Fin 64 → Fin 1024 → EReal) (V : Fin 1024 → Fin 512 → EReal) : Fin 64 → Fin 512 → EReal :=
  fun i d => ∑ j : Fin 1024, Ideal.div (A i j) ((∑ j' : Fin 1024, A i j') + eps) * V j d

/-- Batch element b of a [128, 1024, 512] array, as a table. -/
def slab (x : (⟨3, ![128, 1024, 512]⟩ : Shape).Idx → EReal) (b : Fin 128) : Fin 1024 → Fin 512 → EReal :=
  fun n d => x (ix3 b n d)

/-- The one [64, 512] table of a [1, 64, 512] array. -/
def slots (x : (⟨3, ![1, 64, 512]⟩ : Shape).Idx → EReal) : Fin 64 → Fin 512 → EReal := fun i d => x (ix3 (0 : Fin 1) i d)

/-- A [512, 512] array as a table. -/
def mat (x : (⟨2, ![512, 512]⟩ : Shape).Idx → EReal) : Fin 512 → Fin 512 → EReal := fun e d => x (ix2 e d)

/-- A [512] array as a table. -/
def vec (x : (⟨1, ![512]⟩ : Shape).Idx → EReal) : Fin 512 → EReal := fun e => x (ix1 e)

/-- The attention table of batch element b, from the nine argument arrays (the values are not used). -/
def attnOf (x0 : (⟨3, ![128, 1024, 512]⟩ : Shape).Idx → EReal) (x2 : (⟨3, ![1, 64, 512]⟩ : Shape).Idx → EReal)
    (x3 : (⟨2, ![512, 512]⟩ : Shape).Idx → EReal) (x4 : (⟨1, ![512]⟩ : Shape).Idx → EReal)
    (x5 : (⟨2, ![512, 512]⟩ : Shape).Idx → EReal) (x6 : (⟨1, ![512]⟩ : Shape).Idx → EReal)
    (x7 : (⟨2, ![512, 512]⟩ : Shape).Idx → EReal) (x8 : (⟨1, ![512]⟩ : Shape).Idx → EReal) (b : Fin 128) :
    Fin 64 → Fin 1024 → EReal :=
  attention (logits (slots x2) (keys (slab x0 b) (mat x3) (vec x4) (mat x5) (vec x6) (mat x7) (vec x8)))

/-- The whole attention output, a [128, 64, 1024] array. -/
def attnArray (x0 : (⟨3, ![128, 1024, 512]⟩ : Shape).Idx → EReal) (x2 : (⟨3, ![1, 64, 512]⟩ : Shape).Idx → EReal)
    (x3 : (⟨2, ![512, 512]⟩ : Shape).Idx → EReal) (x4 : (⟨1, ![512]⟩ : Shape).Idx → EReal)
    (x5 : (⟨2, ![512, 512]⟩ : Shape).Idx → EReal) (x6 : (⟨1, ![512]⟩ : Shape).Idx → EReal)
    (x7 : (⟨2, ![512, 512]⟩ : Shape).Idx → EReal) (x8 : (⟨1, ![512]⟩ : Shape).Idx → EReal) :
    (⟨3, ![128, 64, 1024]⟩ : Shape).Idx → EReal :=
  fun y => attnOf x0 x2 x3 x4 x5 x6 x7 x8 (y 0) (y 1) (y 2)

/-- The whole update output, a [128, 64, 512] array. -/
def updArray (x0 x1 : (⟨3, ![128, 1024, 512]⟩ : Shape).Idx → EReal) (x2 : (⟨3, ![1, 64, 512]⟩ : Shape).Idx → EReal)
    (x3 : (⟨2, ![512, 512]⟩ : Shape).Idx → EReal) (x4 : (⟨1, ![512]⟩ : Shape).Idx → EReal)
    (x5 : (⟨2, ![512, 512]⟩ : Shape).Idx → EReal) (x6 : (⟨1, ![512]⟩ : Shape).Idx → EReal)
    (x7 : (⟨2, ![512, 512]⟩ : Shape).Idx → EReal) (x8 : (⟨1, ![512]⟩ : Shape).Idx → EReal) :
    (⟨3, ![128, 64, 512]⟩ : Shape).Idx → EReal :=
  fun y => updates (attnOf x0 x2 x3 x4 x5 x6 x7 x8 (y 0)) (slab x1 (y 0)) (y 1) (y 2)

end Cert.SlotAttention

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.KernelKeys.lean ====
/-
  The kernel body's keys, entry by entry.

  At a grid point the body holds one batch element's tokens X (a [1, 1024, 512] block), the three weight matrices and
  the three bias vectors.  It spells a dense layer as a matrix product of the tokens with the TRANSPOSED weight matrix
  into a zero accumulator, plus the bias laid out as a one-row matrix and repeated down the 1024 rows; the changes of
  float format around it are the identity on exact values.  So entry (n, e) of a layer is Σ_d X[n, d]·W[e, d] + b[e]: the
  specification's `dense`.  The keys leave the body transposed ([512, 1024]), so entry (d, j) of that payload is the key
  of token j at coordinate d.
-/
import proofs.«155353_j18176301597397_1_alg».proof.Proof.Gen.KernelIdeal.Skeleton
import proofs.«155353_j18176301597397_1_alg».proof.Proof.SlotAttention
import proofs.«155353_j18176301597397_1_alg».proof.Proof.LibMatmul
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Keys

open Cert.KernelIdeal Cert.KernelIdeal.Gen Idealize.ShloMosaic Idealize.ShloMosaic.ValueIdx Cert.SlotAttention

/-- One dense layer as the body spells it: the rows Y against the transposed weights, plus the bias row repeated. -/
def layerV (Y : FVec Ideal S1024x512 .bf16) (Wv : Vec Ideal S512x512 .f32) (bv : Vec Ideal S512 .f32) :
    FVec Ideal S1024x512 .f32 :=
  addf (matmul dot_S1024x512_S512x512_S1024x512_1_0_0_1_n_n none Y
      (transpose S512x512 [1, 0] (truncf .bf16 Wv bitsLt_bf16_f32) transposes_S512x512_p1_0_S512x512)
      (constant S1024x512 .f32 0x00000000#32))
    (broadcastTo S1024x512 (shapeCast S1x512 bv shapeCasts_S512_S1x512) broadcasts_S1x512_S1024x512)

/-- The positive part as the body spells it: the maximum with a zero splat, then a change of float format. -/
def reluV (Z : FVec Ideal S1024x512 .f32) : FVec Ideal S1024x512 .bf16 :=
  truncf .bf16 (maximumf Z (broadcast S1024x512 (Scalar.ofBits .f32 0x00000000#32))) bitsLt_bf16_f32

/-- The body's product record is the plain [1024, 512] × [512, 512] product. -/
theorem dot_layer_eq : dot_S1024x512_S512x512_S1024x512_1_0_0_1_n_n = DotDims.plain 1024 512 512 := rfl

/-- A layer at entry (n, e), for rows read as the table X, weights as W and bias as β. -/
theorem layerV_apply (Y : FVec Ideal S1024x512 .bf16) (Wv : Vec Ideal S512x512 .f32) (bv : Vec Ideal S512 .f32)
    (X : Fin 1024 → Fin 512 → EReal) (W : Fin 512 → Fin 512 → EReal) (β : Fin 512 → EReal)
    (hY : ∀ n d, Y (ix2 n d) = X n d) (hW : ∀ e d, Wv (ix2 e d) = W e d) (hβ : ∀ e, bv (ix1 e) = β e)
    (n : Fin 1024) (e : Fin 512) : layerV Y Wv bv (ix2 n e) = dense X W β n e := by
  unfold layerV dense
  rw [addf_apply, dot_layer_eq]
  refine congrArg₂ (· + ·) ?_ ?_
  · refine (Cert.LibMatmul.plain_matmul_zero_apply none Y _ n e).trans ?_
    refine Finset.sum_congr rfl fun k _ => ?_
    rw [hY, transpose_ix2_apply, truncf_apply, hW]
  · rw [broadcastTo_1b_ab_apply, shapeCast_a_1a_apply, hβ]

/-- The positive part at entry (n, e). -/
theorem reluV_apply (Z : FVec Ideal S1024x512 .f32) (Y : Fin 1024 → Fin 512 → EReal) (hZ : ∀ n e, Z (ix2 n e) = Y n e)
    (n : Fin 1024) (e : Fin 512) : reluV Z (ix2 n e) = relu Y n e := by
  unfold reluV relu
  rw [truncf_apply, maximumf_apply, broadcast_apply, hZ]
  show max (Y n e) (Ideal.ofBits .f32 0x00000000#32) = _
  rw [Ideal.ofBits_zero_f32]

/-- The keys payload is three layers, two rectified, transposed at the end. -/
theorem pay5_eq (P1 : Vec Ideal S1x1024x512 .f32) (P2 : Vec Ideal S512x512 .f32) (P3 : Vec Ideal S512 .f32)
    (P4 : Vec Ideal S512x512 .f32) (P5 : Vec Ideal S512 .f32) (P6 : Vec Ideal S512x512 .f32) (P7 : Vec Ideal S512 .f32) :
    k0_pay5 (F := Ideal) P1 P2 P3 P4 P5 P6 P7
      = transpose S512x1024 [1, 0]
          (truncf .bf16
            (layerV (reluV (layerV (reluV (layerV
              (truncf .bf16 (shapeCast S1024x512 P1 shapeCasts_S1x1024x512_S1024x512) bitsLt_bf16_f32) P2 P3)) P4 P5)) P6 P7)
            bitsLt_bf16_f32)
          transposes_S1024x512_p1_0_S512x1024 := rfl

/-- THE KEYS PAYLOAD at (d, j): coordinate d of the key of token j, from the block's tokens and the weights. -/
theorem pay5_apply (P1 : Vec Ideal S1x1024x512 .f32) (P2 : Vec Ideal S512x512 .f32) (P3 : Vec Ideal S512 .f32)
    (P4 : Vec Ideal S512x512 .f32) (P5 : Vec Ideal S512 .f32) (P6 : Vec Ideal S512x512 .f32) (P7 : Vec Ideal S512 .f32)
    (d : Fin 512) (j : Fin 1024) :
    k0_pay5 (F := Ideal) P1 P2 P3 P4 P5 P6 P7 (ix2 d j)
      = keys (fun n d' => P1 (ix3 (0 : Fin 1) n d')) (mat P2) (vec P3) (mat P4) (vec P5) (mat P6) (vec P7) j d := by
  rw [pay5_eq, transpose_ix2_apply, truncf_apply]
  unfold keys
  refine layerV_apply _ _ _ _ _ _ (fun n d' => ?_) (fun _ _ => rfl) (fun _ => rfl) j d
  refine reluV_apply _ _ (fun n e => ?_) n d'
  refine layerV_apply _ _ _ _ _ _ (fun n d' => ?_) (fun _ _ => rfl) (fun _ => rfl) n e
  refine reluV_apply _ _ (fun n e => ?_) n d'
  refine layerV_apply _ _ _ _ _ _ (fun n d' => ?_) (fun _ _ => rfl) (fun _ => rfl) n e
  rw [truncf_apply, shapeCast_1ab_ab_apply]

end Cert.KernelIdeal.Keys

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«155353_j18176301597397_1_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibColSums.lean ====
/-
  Column sums of a matrix read at an index — general in the extents.

  A sum along axis 0 of an [a, b] matrix is, at column q, the sum over k < a of the entries (k, q).  A kernel takes it as
  a reduction along the rows (its accumulator the neutral zero, which the reading drops) and casts the [b] result to a
  [1, b] row.
-/
import Idealize.ShloMosaic.Lib.ValueLayout
import Idealize.ShloMosaic.PureOps.Ideal.Laws

open scoped BigOperators

namespace Cert.LibColSums

open Idealize.ShloMosaic Idealize.ShloMosaic.ValueIdx

/-- The source index a sum along axis 0 inserts over column q at coordinate k is (k, q). -/
theorem lift_col {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

/-- A KERNEL'S COLUMN SUM kept as a row: the reduction along axis 0 of an [a, b] matrix, cast from [b] to [1, b],
    reads at (u, q) the sum over k < a of the entries (k, q). -/
theorem sublaneSum_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (u : Fin 1) (q : Fin b) :
    shapeCast ⟨2, ![1, b]⟩ (multiReduction .add [0] ⟨1, ![b]⟩ src acc h hφ hacc) hc (ix2 u q)
      = ∑ k : Fin a, src (ix2 k q) := by
  rw [shapeCast_a_1a_apply]
  refine (Ideal.multiReduction_add_single src acc h hφ hacc (ix1 q)).trans ?_
  show (∑ k : Fin a, src (h.lift (ix1 q) k)) = _
  exact Finset.sum_congr rfl fun k _ => congrArg src (lift_col h q k)

end Cert.LibColSums
-- ==== Proof.KernelAttention.lean ====
/-
  The kernel body's attention table and slot updates, entry by entry.

  From the slots Q (as a [64, 512] matrix) and the transposed keys the body forms the logits Q·Kᵀ times the scale.  It
  sums each row along the lanes and keeps the 64 sums as a column; sums that column to one number kept as a [1, 1]
  matrix; divides every logit by its row's sum (the column repeated across) and multiplies by the total (the one entry
  repeated everywhere); and applies the logistic function: the attention table.  For the updates it sums the attention
  rows the same way, adds ε to the column, divides each attention entry by its row's entry, and multiplies the
  resulting [64, 1024] matrix with the batch element's values ([1024, 512]) into a zero accumulator.  The two results
  leave the body with a leading unit axis added.
-/
import proofs.«155353_j18176301597397_1_alg».proof.Proof.Gen.KernelIdeal.Skeleton
import proofs.«155353_j18176301597397_1_alg».proof.Proof.SlotAttention
import proofs.«155353_j18176301597397_1_alg».proof.Proof.LibMatmul
import proofs.«155353_j18176301597397_1_alg».proof.Proof.LibColumns
import proofs.«155353_j18176301597397_1_alg».proof.Proof.LibRowSums
import proofs.«155353_j18176301597397_1_alg».proof.Proof.LibColSums
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Attention

open Cert.KernelIdeal Cert.KernelIdeal.Gen Idealize.ShloMosaic Idealize.ShloMosaic.ValueIdx Cert.SlotAttention

/-- The scaled logits as the body spells them. -/
def logitsV (Qv : FVec Ideal S64x512 .bf16) (KT : FVec Ideal S512x1024 .bf16) : FVec Ideal S64x1024 .f32 :=
  mulf (matmul dot_S64x512_S512x1024_S64x1024_1_0_0_1_n_n none Qv KT (constant S64x1024 .f32 0x00000000#32))
    (broadcast S64x1024 (Scalar.ofBits .f32 0x3D3504F3#32))

/-- The row sums of a [64, 1024] matrix kept as a column. -/
def rowSumV (L : FVec Ideal S64x1024 .f32) : FVec Ideal S64x1 .f32 :=
  shapeCast S64x1 (multiReduction .add [1] S64 L 0x00000000#32 reduces_S64x1024_S64 (.inl rfl) rfl) shapeCasts_S64_S64x1

/-- The renormalised logits through the logistic, as the body spells it. -/
def attnV (L : FVec Ideal S64x1024 .f32) : FVec Ideal S64x1024 .f32 :=
  logistic (mulf (divf L (broadcastTo S64x1024 (rowSumV L) broadcasts_S64x1_S64x1024))
    (broadcastTo S64x1024
      (shapeCast S1x1 (multiReduction .add [0] S1 (rowSumV L) 0x00000000#32 reduces_S64x1_S1 (.inl rfl) rfl) shapeCasts_S1_S1x1)
      broadcasts_S1x1_S64x1024))

/-- The slot updates as the body spells them, with the leading unit axis added. -/
def updV (A : FVec Ideal S64x1024 .f32) (Vv : Vec Ideal S1x1024x512 .f32) : FVec Ideal S1x64x512 .f32 :=
  shapeCast S1x64x512
    (matmul dot_S64x1024_S1024x512_S64x512_1_0_0_1_n_n none
      (truncf .bf16 (divf A (broadcastTo S64x1024
        (addf (rowSumV A) (broadcast S64x1 (Scalar.ofBits .f32 0x322BCC77#32))) broadcasts_S64x1_S64x1024)) bitsLt_bf16_f32)
      (truncf .bf16 (shapeCast S1024x512 Vv shapeCasts_S1x1024x512_S1024x512) bitsLt_bf16_f32)
      (constant S64x512 .f32 0x00000000#32))
    shapeCasts_S64x512_S1x64x512

theorem dot_logits_eq : dot_S64x512_S512x1024_S64x1024_1_0_0_1_n_n = DotDims.plain 64 512 1024 := rfl
theorem dot_updates_eq : dot_S64x1024_S1024x512_S64x512_1_0_0_1_n_n = DotDims.plain 64 1024 512 := rfl

/-- The attention payload is the logistic table of the scaled logits. -/
theorem pay1_eq (Qv : FVec Ideal S64x512 .bf16) (KT : FVec Ideal S512x1024 .bf16) :
    k0_pay1 (F := Ideal) Qv KT (constant S64x1024 .f32 0x00000000#32) = attnV (logitsV Qv KT) := rfl

/-- The update payload is the weighted average of the value rows over that table. -/
theorem pay2_eq (Qv : FVec Ideal S64x512 .bf16) (KT : FVec Ideal S512x1024 .bf16) (Vv : Vec Ideal S1x1024x512 .f32) :
    k0_pay2 (F := Ideal) Qv KT (constant S64x1024 .f32 0x00000000#32) Vv = updV (attnV (logitsV Qv KT)) Vv := rfl

/-- The attention output payload is that table with a leading unit axis. -/
theorem pay3_eq (Qv : FVec Ideal S64x512 .bf16) (KT : FVec Ideal S512x1024 .bf16) :
    k0_pay3 (F := Ideal) Qv KT (constant S64x1024 .f32 0x00000000#32)
      = shapeCast S1x64x1024 (attnV (logitsV Qv KT)) shapeCasts_S64x1024_S1x64x1024 := rfl

/-- The slots payload is the slot block with its unit axis dropped. -/
theorem pay4_apply (P0 : Vec Ideal S1x64x512 .f32) (i : Fin 64) (d : Fin 512) :
    k0_pay4 (F := Ideal) P0 (ix2 i d) = slots P0 i d := by
  unfold k0_pay4
  rw [truncf_apply, shapeCast_1ab_ab_apply]
  rfl

/-- The scaled logits at (i, j), for slots read as Q and transposed keys as K. -/
theorem logitsV_apply (Qv : FVec Ideal S64x512 .bf16) (KT : FVec Ideal S512x1024 .bf16)
    (Q : Fin 64 → Fin 512 → EReal) (K : Fin 1024 → Fin 512 → EReal)
    (hQ : ∀ i d, Qv (ix2 i d) = Q i d) (hK : ∀ d j, KT (ix2 d j) = K j d) (i : Fin 64) (j : Fin 1024) :
    logitsV Qv KT (ix2 i j) = logits Q K i j := by
  unfold logitsV logits
  rw [mulf_apply, broadcast_apply, dot_logits_eq]
  refine congrArg₂ (· * ·) ?_ rfl
  refine (Cert.LibMatmul.plain_matmul_zero_apply none Qv KT i j).trans ?_
  exact Finset.sum_congr rfl fun k _ => by rw [hQ, hK]

/-- The row-sum column at (i, u), for a matrix read as the table Lt. -/
theorem rowSumV_apply (L : FVec Ideal S64x1024 .f32) (Lt : Fin 64 → Fin 1024 → EReal) (hL : ∀ i j, L (ix2 i j) = Lt i j)
    (i : Fin 64) (u : Fin 1) : rowSumV L (ix2 i u) = ∑ j : Fin 1024, Lt i j := by
  unfold rowSumV
  refine (Cert.LibRowSums.laneSum_apply L _ reduces_S64x1024_S64 _ _ shapeCasts_S64_S64x1 i u).trans ?_
  exact Finset.sum_congr rfl fun k _ => hL i k

/-- The one entry of a [1, 1] matrix repeated over [64, 1024]. -/
theorem broadcastTo_11_apply (v : FVec Ideal S1x1 .f32) (i : Fin 64) (j : Fin 1024) :
    broadcastTo S64x1024 v broadcasts_S1x1_S64x1024 (ix2 i j) = v (ix2 (0 : Fin 1) (0 : Fin 1)) := by
  refine broadcastTo_apply v broadcasts_S1x1_S64x1024 (ix2 i j) (ix2 (0 : Fin 1) (0 : Fin 1)) fun ax => ?_
  match ax with
  | ⟨0, _⟩ => rfl
  | ⟨1, _⟩ => rfl

/-- THE ATTENTION TABLE at (i, j). -/
theorem attnV_apply (L : FVec Ideal S64x1024 .f32) (Lt : Fin 64 → Fin 1024 → EReal) (hL : ∀ i j, L (ix2 i j) = Lt i j)
    (i : Fin 64) (j : Fin 1024) : attnV L (ix2 i j) = attention Lt i j := by
  unfold attnV attention
  show Ideal.logistic (_ : EReal) = _
  refine congrArg Ideal.logistic ?_
  rw [mulf_apply, divf_apply, Cert.LibColumns.broadcastTo_a1_ab_apply, rowSumV_apply L Lt hL, hL, broadcastTo_11_apply]
  refine congrArg₂ (· * ·) rfl ?_
  refine (Cert.LibColSums.sublaneSum_apply (rowSumV L) _ reduces_S64x1_S1 _ _ shapeCasts_S1_S1x1 0 0).trans ?_
  exact Finset.sum_congr rfl fun k _ => rowSumV_apply L Lt hL k 0

/-- THE SLOT UPDATES at (u, i, d). -/
theorem updV_apply (A : FVec Ideal S64x1024 .f32) (At : Fin 64 → Fin 1024 → EReal) (hA : ∀ i j, A (ix2 i j) = At i j)
    (Vv : Vec Ideal S1x1024x512 .f32) (u : Fin 1) (i : Fin 64) (d : Fin 512) :
    updV A Vv (ix3 u i d) = updates At (fun j d' => Vv (ix3 (0 : Fin 1) j d')) i d := by
  unfold updV updates
  rw [shapeCast_ab_1ab_apply, dot_updates_eq]
  refine (Cert.LibMatmul.plain_matmul_zero_apply none _ _ i d).trans ?_
  refine Finset.sum_congr rfl fun k _ => ?_
  rw [truncf_apply, truncf_apply, shapeCast_1ab_ab_apply, divf_apply, Cert.LibColumns.broadcastTo_a1_ab_apply, addf_apply,
    rowSumV_apply A At hA, hA, broadcast_apply]
  rfl

end Cert.KernelIdeal.Attention

end
-- ==== Proof.KernelArrays.lean ====
/-
  From blocks to arrays: what the kernel leaves in its two result arrays.

  The grid has one point per batch element.  At point t the two token windows hold batch element t of their arrays,
  the slot, weight and bias windows hold their whole arrays, and the two result windows write back block t — one batch
  element — of theirs.  So what point t writes back is the specification's attention table, and its slot updates, of
  batch element t; the 128 blocks tile each result array, and after the run each result array is the specification's
  whole array.
-/
import proofs.«155353_j18176301597397_1_alg».proof.Proof.Gen.KernelIdeal.Value
import proofs.«155353_j18176301597397_1_alg».proof.Proof.SlotAttention
import proofs.«155353_j18176301597397_1_alg».proof.Proof.KernelKeys
import proofs.«155353_j18176301597397_1_alg».proof.Proof.KernelAttention
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Cert.SlotAttention Cert.KernelIdeal.Keys Cert.KernelIdeal.Attention
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The attention array the specification assigns to the argument arrays on core c. -/
abbrev attnOut (c : Dev nD) : S128x64x1024.Idx → Elt Ideal .f32 :=
  attnArray (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- The update array the specification assigns to the argument arrays on core c. -/
abbrev updOut (c : Dev nD) : S128x64x512.Idx → Elt Ideal .f32 :=
  updArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## One grid point, over variables -/

/-- The attention payload at a block index, from the blocks the body loaded. -/
theorem attn_point (P0 : Vec Ideal S1x1024x512 .f32) (P2 : Vec Ideal S1x64x512 .f32) (P3 : Vec Ideal S512x512 .f32)
    (P4 : Vec Ideal S512 .f32) (P5 : Vec Ideal S512x512 .f32) (P6 : Vec Ideal S512 .f32) (P7 : Vec Ideal S512x512 .f32)
    (P8 : Vec Ideal S512 .f32) (j : S1x64x1024.Idx) :
    k0_pay3 (F := Ideal) (k0_pay4 P2) (k0_pay5 P0 P3 P4 P5 P6 P7 P8) (constant S64x1024 .f32 0x00000000#32) j
      = attention (logits (slots P2) (keys (fun n d => P0 (ix3 (0 : Fin 1) n d)) (mat P3) (vec P4) (mat P5) (vec P6) (mat P7) (vec P8)))
          (j 1) (j 2) := by
  obtain ⟨u, i, q, rfl⟩ : ∃ (u : Fin 1) (i : Fin 64) (q : Fin 1024), j = ix3 u i q := ⟨j 0, j 1, j 2, eq_ix3 j⟩
  rw [pay3_eq, shapeCast_ab_1ab_apply]
  exact attnV_apply _ _ (fun i' j' => logitsV_apply _ _ _ _ (pay4_apply P2)
    (fun d' j'' => pay5_apply P0 P3 P4 P5 P6 P7 P8 d' j'') i' j') i q

/-- The update payload at a block index, from the blocks the body loaded. -/
theorem upd_point (P0 P1 : Vec Ideal S1x1024x512 .f32) (P2 : Vec Ideal S1x64x512 .f32) (P3 : Vec Ideal S512x512 .f32)
    (P4 : Vec Ideal S512 .f32) (P5 : Vec Ideal S512x512 .f32) (P6 : Vec Ideal S512 .f32) (P7 : Vec Ideal S512x512 .f32)
    (P8 : Vec Ideal S512 .f32) (j : S1x64x512.Idx) :
    k0_pay2 (F := Ideal) (k0_pay4 P2) (k0_pay5 P0 P3 P4 P5 P6 P7 P8) (constant S64x1024 .f32 0x00000000#32) P1 j
      = updates (attention (logits (slots P2) (keys (fun n d => P0 (ix3 (0 : Fin 1) n d)) (mat P3) (vec P4) (mat P5) (vec P6) (mat P7) (vec P8))))
          (fun n d => P1 (ix3 (0 : Fin 1) n d)) (j 1) (j 2) := by
  obtain ⟨u, i, q, rfl⟩ : ∃ (u : Fin 1) (i : Fin 64) (q : Fin 512), j = ix3 u i q := ⟨j 0, j 1, j 2, eq_ix3 j⟩
  rw [pay2_eq]
  exact updV_apply _ _ (fun i' j' => attnV_apply _ _ (fun i'' j'' => logitsV_apply _ _ _ _ (pay4_apply P2)
    (fun d' j3 => pay5_apply P0 P3 P4 P5 P6 P7 P8 d' j3) i'' j'') i' j') P1 u i q

/-! ## The windows' blocks at a grid point -/

/-- The printed index maps, decided over the 128 grid points: the token and result windows sit at block t of their
    leading axis, every other window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 3) = t.val ∧ win0_9.index t (1 : Fin 3) = 0 ∧ win0_9.index t (2 : Fin 3) = 0
    ∧ win0_10.index t (0 : Fin 3) = t.val ∧ win0_10.index t (1 : Fin 3) = 0 ∧ win0_10.index t (2 : Fin 3) = 0 :=
  (by decide +kernel : ∀ t : Fin grid0.N, _)

/-- The batch element a grid point works on. -/
abbrev batchOf (t : Fin cfg0.N) : Fin 128 := Fin.cast N_0 t

/-- The token window's block at point t is batch element t of the first argument. -/
theorem blk_tokens (c : Dev nD) (t : Fin cfg0.N) :
    (fun n d => (iblk m c 0 t : Vec Ideal S1x1024x512 .f32) (ix3 (0 : Fin 1) n d)) = slab (m ((c : Thread nD τ).loc main_arg0)) (batchOf t) := by
  obtain ⟨e0, e1, e2, -⟩ := idx_facts t
  funext n d
  show V m c main_arg0 (((cfg0.win 0).blk t).view.emb (ix3 (0 : Fin 1) n d)) = V m c main_arg0 (ix3 (batchOf t) n d)
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 512 + 1 * d.val = d.val; omega

/-- The value window's block at point t is batch element t of the second argument. -/
theorem blk_values (c : Dev nD) (t : Fin cfg0.N) :
    (fun n d => (iblk m c 1 t : Vec Ideal S1x1024x512 .f32) (ix3 (0 : Fin 1) n d)) = slab (m ((c : Thread nD τ).loc main_arg1)) (batchOf t) := by
  obtain ⟨-, -, -, e0, e1, e2, -⟩ := idx_facts t
  funext n d
  show V m c main_arg1 (((cfg0.win 1).blk t).view.emb (ix3 (0 : Fin 1) n d)) = V m c main_arg1 (ix3 (batchOf t) n d)
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 512 + 1 * d.val = d.val; omega

/-- The slot window's block is the whole slot array. -/
theorem blk_slots (c : Dev nD) (t : Fin cfg0.N) :
    slots (iblk m c 2 t : Vec Ideal S1x64x512 .f32) = slots (m ((c : Thread nD τ).loc main_arg2)) := by
  obtain ⟨-, -, -, -, -, -, e0, e1, e2, -⟩ := idx_facts t
  funext i d
  show V m c main_arg2 (((cfg0.win 2).blk t).view.emb (ix3 (0 : Fin 1) i d)) = V m c main_arg2 (ix3 (0 : Fin 1) i d)
  refine congrArg _ (funext fun a => Fin.ext ?_)
  match a with
  | ⟨0, _⟩ => show win0_2.index t (0 : Fin 3) * 1 + 1 * 0 = 0; omega
  | ⟨1, _⟩ => show win0_2.index t (1 : Fin 3) * 64 + 1 * i.val = i.val; omega
  | ⟨2, _⟩ => show win0_2.index t (2 : Fin 3) * 512 + 1 * d.val = d.val; omega

/-- Each weight window's block is its whole matrix. -/
theorem blk_w1 (c : Dev nD) (t : Fin cfg0.N) :
    mat (iblk m c 3 t : Vec Ideal S512x512 .f32) = mat (m ((c : Thread nD τ).loc main_arg3)) := by
  obtain ⟨-, -, -, -, -, -, -, -, -, e0, e1, -⟩ := idx_facts t
  funext e d
  show V m c main_arg3 (((cfg0.win 3).blk t).view.emb (ix2 e d)) = V m c main_arg3 (ix2 e d)
  refine congrArg _ (funext fun a => Fin.ext ?_)
  match a with
  | ⟨0, _⟩ => show win0_3.index t (0 : Fin 2) * 512 + 1 * e.val = e.val; omega
  | ⟨1, _⟩ => show win0_3.index t (1 : Fin 2) * 512 + 1 * d.val = d.val; omega

theorem blk_w2 (c : Dev nD) (t : Fin cfg0.N) :
    mat (iblk m c 5 t : Vec Ideal S512x512 .f32) = mat (m ((c : Thread nD τ).loc main_arg5)) := by
  obtain ⟨-, -, -, -, -, -, -, -, -, -, -, -, e0, e1, -⟩ := idx_facts t
  funext e d
  show V m c main_arg5 (((cfg0.win 5).blk t).view.emb (ix2 e d)) = V m c main_arg5 (ix2 e d)
  refine congrArg _ (funext fun a => Fin.ext ?_)
  match a with
  | ⟨0, _⟩ => show win0_5.index t (0 : Fin 2) * 512 + 1 * e.val = e.val; omega
  | ⟨1, _⟩ => show win0_5.index t (1 : Fin 2) * 512 + 1 * d.val = d.val; omega

theorem blk_w3 (c : Dev nD) (t : Fin cfg0.N) :
    mat (iblk m c 7 t : Vec Ideal S512x512 .f32) = mat (m ((c : Thread nD τ).loc main_arg7)) := by
  obtain ⟨-, -, -, -, -, -, -, -, -, -, -, -, -, -, -, e0, e1, -⟩ := idx_facts t
  funext e d
  show V m c main_arg7 (((cfg0.win 7).blk t).view.emb (ix2 e d)) = V m c main_arg7 (ix2 e d)
  refine congrArg _ (funext fun a => Fin.ext ?_)
  match a with
  | ⟨0, _⟩ => show win0_7.index t (0 : Fin 2) * 512 + 1 * e.val = e.val; omega
  | ⟨1, _⟩ => show win0_7.index t (1 : Fin 2) * 512 + 1 * d.val = d.val; omega

/-- Each bias window's block is its whole vector. -/
theorem blk_b1 (c : Dev nD) (t : Fin cfg0.N) :
    vec (iblk m c 4 t : Vec Ideal S512 .f32) = vec (m ((c : Thread nD τ).loc main_arg4)) := by
  obtain ⟨-, -, -, -, -, -, -, -, -, -, -, e0, -⟩ := idx_facts t
  funext e
  show V m c main_arg4 (((cfg0.win 4).blk t).view.emb (ix1 e)) = V m c main_arg4 (ix1 e)
  refine congrArg _ (funext fun a => Fin.ext ?_)
  match a with
  | ⟨0, _⟩ => show win0_4.index t (0 : Fin 1) * 512 + 1 * e.val = e.val; omega

theorem blk_b2 (c : Dev nD) (t : Fin cfg0.N) :
    vec (iblk m c 6 t : Vec Ideal S512 .f32) = vec (m ((c : Thread nD τ).loc main_arg6)) := by
  obtain ⟨-, -, -, -, -, -, -, -, -, -, -, -, -, -, e0, -⟩ := idx_facts t
  funext e
  show V m c main_arg6 (((cfg0.win 6).blk t).view.emb (ix1 e)) = V m c main_arg6 (ix1 e)
  refine congrArg _ (funext fun a => Fin.ext ?_)
  match a with
  | ⟨0, _⟩ => show win0_6.index t (0 : Fin 1) * 512 + 1 * e.val = e.val; omega

theorem blk_b3 (c : Dev nD) (t : Fin cfg0.N) :
    vec (iblk m c 8 t : Vec Ideal S512 .f32) = vec (m ((c : Thread nD τ).loc main_arg8)) := by
  obtain ⟨-, -, -, -, -, -, -, -, -, -, -, -, -, -, -, -, -, e0, -⟩ := idx_facts t
  funext e
  show V m c main_arg8 (((cfg0.win 8).blk t).view.emb (ix1 e)) = V m c main_arg8 (ix1 e)
  refine congrArg _ (funext fun a => Fin.ext ?_)
  match a with
  | ⟨0, _⟩ => show win0_8.index t (0 : Fin 1) * 512 + 1 * e.val = e.val; omega

/-! ## What a point writes back -/

/-- Point t writes back block t of the specification's attention array. -/
theorem flushed_attn (c : Dev nD) (t : Fin cfg0.N) :
    (dats m 0 c).flushed 10 t = ((cfg0.win 10).blk t).view.read (Elt Ideal) (attnOut m c) := by
  rw [Cert.KernelIdeal.Value.flushed10]
  unfold out0_10
  rw [View.canon_unit_zero hz3]
  simp only [View.ld_unit_zero (S := S1x1024x512) hz3, View.ld_unit_zero (S := S1x64x512) hz3,
    View.ld_unit_zero (S := S512x512) hz2, View.ld_unit_zero (S := S512) hz1]
  obtain ⟨-, -, -, -, -, -, -, -, -, -, -, -, -, -, -, -, -, -, -, -, -, e0, e1, e2⟩ := idx_facts t
  funext j
  show k0_pay3 (F := Ideal) (k0_pay4 (iblk m c 2 t)) (k0_pay5 (iblk m c 0 t) (iblk m c 3 t) (iblk m c 4 t) (iblk m c 5 t)
      (iblk m c 6 t) (iblk m c 7 t) (iblk m c 8 t)) (constant S64x1024 .f32 0x00000000#32) j
    = attnOut m c (((cfg0.win 10).blk t).view.emb j)
  refine (attn_point _ _ _ _ _ _ _ _ j).trans ?_
  rw [blk_tokens m c t, blk_slots m c t, blk_w1 m c t, blk_b1 m c t, blk_w2 m c t, blk_b2 m c t, blk_w3 m c t, blk_b3 m c t]
  have he : ((cfg0.win 10).blk t).view.emb j = ix3 (batchOf t) (j 1) (j 2) := by
    funext a; apply Fin.ext
    have h0 : (j 0).val < 1 := (j 0).isLt
    match a with
    | ⟨0, _⟩ => show win0_10.index t (0 : Fin 3) * 1 + 1 * (j 0).val = t.val; omega
    | ⟨1, _⟩ => show win0_10.index t (1 : Fin 3) * 64 + 1 * (j 1).val = (j 1).val; omega
    | ⟨2, _⟩ => show win0_10.index t (2 : Fin 3) * 1024 + 1 * (j 2).val = (j 2).val; omega
  rw [he]
  rfl

/-- Point t writes back block t of the specification's update array. -/
theorem flushed_upd (c : Dev nD) (t : Fin cfg0.N) :
    (dats m 0 c).flushed 9 t = ((cfg0.win 9).blk t).view.read (Elt Ideal) (updOut m c) := by
  rw [Cert.KernelIdeal.Value.flushed9]
  unfold out0_9
  rw [View.canon_unit_zero hz3]
  simp only [View.ld_unit_zero (S := S1x1024x512) hz3, View.ld_unit_zero (S := S1x64x512) hz3,
    View.ld_unit_zero (S := S512x512) hz2, View.ld_unit_zero (S := S512) hz1]
  obtain ⟨-, -, -, -, -, -, -, -, -, -, -, -, -, -, -, -, -, -, e0, e1, e2, -⟩ := idx_facts t
  funext j
  show k0_pay2 (F := Ideal) (k0_pay4 (iblk m c 2 t)) (k0_pay5 (iblk m c 0 t) (iblk m c 3 t) (iblk m c 4 t) (iblk m c 5 t)
      (iblk m c 6 t) (iblk m c 7 t) (iblk m c 8 t)) (constant S64x1024 .f32 0x00000000#32) (iblk m c 1 t) j
    = updOut m c (((cfg0.win 9).blk t).view.emb j)
  refine (upd_point _ _ _ _ _ _ _ _ _ j).trans ?_
  rw [blk_tokens m c t, blk_values m c t, blk_slots m c t, blk_w1 m c t, blk_b1 m c t, blk_w2 m c t, blk_b2 m c t,
    blk_w3 m c t, blk_b3 m c t]
  have he : ((cfg0.win 9).blk t).view.emb j = ix3 (batchOf t) (j 1) (j 2) := by
    funext a; apply Fin.ext
    have h0 : (j 0).val < 1 := (j 0).isLt
    match a with
    | ⟨0, _⟩ => show win0_9.index t (0 : Fin 3) * 1 + 1 * (j 0).val = t.val; omega
    | ⟨1, _⟩ => show win0_9.index t (1 : Fin 3) * 64 + 1 * (j 1).val = (j 1).val; omega
    | ⟨2, _⟩ => show win0_9.index t (2 : Fin 3) * 512 + 1 * (j 2).val = (j 2).val; omega
  rw [he]
  rfl

/-! ## The blocks tile the arrays -/

/-- An index of the attention array is in point t's block iff each coordinate is in the block's range on its axis. -/
theorem mem_blk_attn (t : Fin cfg0.N) (i : S128x64x1024.Idx) :
    i ∈ ((cfg0.win 10).blk t).view.set ↔ ∀ a : Fin 3, win0_10.index t a * S1x64x1024.size a ≤ (i a).val
      ∧ (i a).val < win0_10.index t a * S1x64x1024.size a + S1x64x1024.size a := by
  show i ∈ ((View.whole main_v0_1).slice (win0_10.rect t)).set ↔ _
  rw [View.set_slice_whole, Rect.mem_set_unit]
  exact Iff.rfl

/-- Likewise for the update array. -/
theorem mem_blk_upd (t : Fin cfg0.N) (i : S128x64x512.Idx) :
    i ∈ ((cfg0.win 9).blk t).view.set ↔ ∀ a : Fin 3, win0_9.index t a * S1x64x512.size a ≤ (i a).val
      ∧ (i a).val < win0_9.index t a * S1x64x512.size a + S1x64x512.size a := by
  show i ∈ ((View.whole main_v0_0).slice (win0_9.rect t)).set ↔ _
  rw [View.set_slice_whole, Rect.mem_set_unit]
  exact Iff.rfl

/-- Every index (b, i, j) of the attention array lies in the block of point b. -/
theorem cover_attn (i : S128x64x1024.Idx) :
    ∃ t : Fin cfg0.N, (cfg0.win 10).flush t = true ∧ i ∈ ((cfg0.win 10).blk t).view.set := by
  refine ⟨Fin.cast N_0.symm (i 0), flush0_10 _, ?_⟩
  rw [mem_blk_attn]
  obtain ⟨-, -, -, -, -, -, -, -, -, -, -, -, -, -, -, -, -, -, -, -, -, e0, e1, e2⟩ := idx_facts (Fin.cast N_0.symm (i 0))
  have hv : (Fin.cast N_0.symm (i 0)).val = (i 0).val := rfl
  have h1 : (i 1).val < 64 := (i 1).isLt
  have h2 : (i 2).val < 1024 := (i 2).isLt
  intro a
  match a with
  | ⟨0, _⟩ =>
    show win0_10.index (Fin.cast N_0.symm (i 0)) (0 : Fin 3) * 1 ≤ (i 0).val
      ∧ (i 0).val < win0_10.index (Fin.cast N_0.symm (i 0)) (0 : Fin 3) * 1 + 1
    omega
  | ⟨1, _⟩ =>
    show win0_10.index (Fin.cast N_0.symm (i 0)) (1 : Fin 3) * 64 ≤ (i 1).val
      ∧ (i 1).val < win0_10.index (Fin.cast N_0.symm (i 0)) (1 : Fin 3) * 64 + 64
    omega
  | ⟨2, _⟩ =>
    show win0_10.index (Fin.cast N_0.symm (i 0)) (2 : Fin 3) * 1024 ≤ (i 2).val
      ∧ (i 2).val < win0_10.index (Fin.cast N_0.symm (i 0)) (2 : Fin 3) * 1024 + 1024
    omega

/-- Every index (b, i, d) of the update array lies in the block of point b. -/
theorem cover_upd (i : S128x64x512.Idx) :
    ∃ t : Fin cfg0.N, (cfg0.win 9).flush t = true ∧ i ∈ ((cfg0.win 9).blk t).view.set := by
  refine ⟨Fin.cast N_0.symm (i 0), flush0_9 _, ?_⟩
  rw [mem_blk_upd]
  obtain ⟨-, -, -, -, -, -, -, -, -, -, -, -, -, -, -, -, -, -, e0, e1, e2, -⟩ := idx_facts (Fin.cast N_0.symm (i 0))
  have hv : (Fin.cast N_0.symm (i 0)).val = (i 0).val := rfl
  have h1 : (i 1).val < 64 := (i 1).isLt
  have h2 : (i 2).val < 512 := (i 2).isLt
  intro a
  match a with
  | ⟨0, _⟩ =>
    show win0_9.index (Fin.cast N_0.symm (i 0)) (0 : Fin 3) * 1 ≤ (i 0).val
      ∧ (i 0).val < win0_9.index (Fin.cast N_0.symm (i 0)) (0 : Fin 3) * 1 + 1
    omega
  | ⟨1, _⟩ =>
    show win0_9.index (Fin.cast N_0.symm (i 0)) (1 : Fin 3) * 64 ≤ (i 1).val
      ∧ (i 1).val < win0_9.index (Fin.cast N_0.symm (i 0)) (1 : Fin 3) * 64 + 64
    omega
  | ⟨2, _⟩ =>
    show win0_9.index (Fin.cast N_0.symm (i 0)) (2 : Fin 3) * 512 ≤ (i 2).val
      ∧ (i 2).val < win0_9.index (Fin.cast N_0.symm (i 0)) (2 : Fin 3) * 512 + 512
    omega

/-! ## The arrays after the run -/

/-- The attention array after the run is the specification's. -/
theorem final_attn (c : Dev nD) : (dats m 0 c).arrAt 10 cfg0.N = attnOut m c :=
  (dats m 0 c).arrAt_eq_of_cover 10 (attnOut m c) (fun t _ => flushed_attn m c t) cover_attn

/-- The update array after the run is the specification's. -/
theorem final_upd (c : Dev nD) : (dats m 0 c).arrAt 9 cfg0.N = updOut m c :=
  (dats m 0 c).arrAt_eq_of_cover 9 (updOut m c) (fun t _ => flushed_upd m c t) cover_upd

/-- THE KERNEL'S RUN: every weakly fair execution terminates with the two result arrays at the specification's
    arrays of the arguments, and the arguments unchanged. -/
theorem run : θ_run defs (onTc (τ := τ) (main (F := Ideal))) ⟨m, fun _ => 0, ρ⟩ fun r => ∀ c : Dev nD,
      r.2.mem ((c : Thread nD τ).loc main_v0_0) = updOut m c
      ∧ r.2.mem ((c : Thread nD τ).loc main_v0_1) = attnOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_upd m c), (h c).2.1.trans (final_attn m c), (h c).2.2⟩)
    (Cert.KernelIdeal.Value.run_blocks m ρ)

end Cert.KernelIdeal.Arrays

end
-- ==== Proof.ReferenceKeys.lean ====
/-
  The reference's keys, entry by entry.

  The reference runs the three dense layers on the whole [128, 1024, 512] array at once: a contraction of the last axis
  with the weight matrix's second axis, plus the bias repeated over the two leading axes, the first two layers followed
  by a maximum with a zero array.  Read at (b, n, e) each layer only sees batch element b, so it is the specification's
  `dense` (and `relu`) on that element's table; the three layers are one function applied three times.
-/
import proofs.«155353_j18176301597397_1_alg».proof.Proof.Gen.ReferenceIdeal.Read
import proofs.«155353_j18176301597397_1_alg».proof.Proof.SlotAttention
import Idealize.ShloMosaic.Lib.ValueIdx
import Idealize.ShloMosaic.PureOps.Ideal.Laws

noncomputable section

open scoped BigOperators

namespace Cert.ReferenceIdeal.Keys

open Cert.ReferenceIdeal Cert.ReferenceIdeal.Gen Cert.ReferenceIdeal.Read Idealize.ShloMosaic Idealize.ShloMosaic.ValueIdx Cert.SlotAttention

/-- Two indices given coordinate by coordinate are equal when each coordinate is. -/
macro "idx_eq" : tactic => `(tactic| (funext a; first
  | (match a with | ⟨0, _⟩ => rfl | ⟨1, _⟩ => rfl | ⟨2, _⟩ => rfl)
  | (match a with | ⟨0, _⟩ => rfl | ⟨1, _⟩ => rfl)
  | (match a with | ⟨0, _⟩ => rfl)
  | exact a.elim0))

/-- ONE LAYER of the reference at an index y = (b, n, e): the dense layer of batch element b's table. -/
theorem layer_at (Z : (⟨S128x1024x512, .f32⟩ : BufTy).Contents (Elt Ideal)) (W : (⟨S512x512, .f32⟩ : BufTy).Contents (Elt Ideal)) (β : (⟨S512, .f32⟩ : BufTy).Contents (Elt Ideal)) (y : S128x1024x512.Idx) :
    val_main_v3 (F := Ideal) Z W β y = dense (slab Z (y 0)) (mat W) (vec β) (y 1) (y 2) := by
  rw [val_main_v3_apply, val_main_v0_apply, val_main_v2_apply, val_main_v1_apply]
  have e1 : ∀ k, lidx_main_v0 y k = ix3 (y 0) (y 1) k := fun k => by idx_eq
  have e2 : ∀ k, ridx_main_v0 y k = ix2 (y 2) k := fun k => by idx_eq
  have e3 : idx_main_v1 (idx_main_v2 y) = ix1 (y 2) := by idx_eq
  simp only [e1, e2, e3]
  rfl

/-- The reference's positive part: the maximum with a zero array. -/
def hostRelu (Z : (⟨S128x1024x512, .f32⟩ : BufTy).Contents (Elt Ideal)) : (⟨S128x1024x512, .f32⟩ : BufTy).Contents (Elt Ideal) :=
  maximumf (F := Ideal) (s := S128x1024x512) (φ := .f32) Z (val_main_call0_v0 (F := Ideal))

/-- The reference's positive part at an index. -/
theorem relu_at (Z : (⟨S128x1024x512, .f32⟩ : BufTy).Contents (Elt Ideal)) (y : S128x1024x512.Idx) : hostRelu Z y = max (Z y) 0 := by
  unfold hostRelu
  rw [maximumf_apply, val_main_call0_v0_apply, val_main_call0_cst_apply]
  show max (Z y) (Ideal.ofBits .f32 0x00000000#32) = _
  rw [Ideal.ofBits_zero_f32]

/-- So batch element b of a rectified layer is the rectified table. -/
theorem slab_relu (Z : (⟨S128x1024x512, .f32⟩ : BufTy).Contents (Elt Ideal)) (Y : Fin 1024 → Fin 512 → EReal) (b : Fin 128)
    (hZ : slab Z b = Y) : slab (hostRelu Z) b = relu Y := by
  funext n e
  show hostRelu Z (ix3 b n e) = max (Y n e) 0
  rw [relu_at, ← hZ]
  rfl

/-- And batch element b of a layer is the dense layer of the table. -/
theorem slab_layer (Z : (⟨S128x1024x512, .f32⟩ : BufTy).Contents (Elt Ideal)) (W : (⟨S512x512, .f32⟩ : BufTy).Contents (Elt Ideal)) (β : (⟨S512, .f32⟩ : BufTy).Contents (Elt Ideal)) (Y : Fin 1024 → Fin 512 → EReal)
    (b : Fin 128) (hZ : slab Z b = Y) : slab (val_main_v3 (F := Ideal) Z W β) b = dense Y (mat W) (vec β) := by
  funext n e
  show val_main_v3 (F := Ideal) Z W β (ix3 b n e) = _
  rw [layer_at, ← hZ]

/-- The reference's layers are one function applied three times, the first two results rectified. -/
theorem v4_eq (x0 : (⟨S128x1024x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) :
    val_main_v4 (F := Ideal) x0 x3 x4 = hostRelu (val_main_v3 (F := Ideal) x0 x3 x4) := rfl
theorem v8_eq (x0 : (⟨S128x1024x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) :
    val_main_v8 (F := Ideal) x0 x3 x4 x5 x6 = val_main_v3 (F := Ideal) (val_main_v4 (F := Ideal) x0 x3 x4) x5 x6 := rfl
theorem v9_eq (x0 : (⟨S128x1024x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) :
    val_main_v9 (F := Ideal) x0 x3 x4 x5 x6 = hostRelu (val_main_v8 (F := Ideal) x0 x3 x4 x5 x6) := rfl
theorem v13_eq (x0 : (⟨S128x1024x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) :
    val_main_v13 (F := Ideal) x0 x3 x4 x5 x6 x7 x8
      = val_main_v3 (F := Ideal) (val_main_v9 (F := Ideal) x0 x3 x4 x5 x6) x7 x8 := rfl

/-- THE REFERENCE'S KEYS: batch element b of the key array is the specification's keys of batch element b. -/
theorem slab_keys (x0 : (⟨S128x1024x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) (b : Fin 128) :
    slab (val_main_v13 (F := Ideal) x0 x3 x4 x5 x6 x7 x8) b
      = keys (slab x0 b) (mat x3) (vec x4) (mat x5) (vec x6) (mat x7) (vec x8) := by
  rw [v13_eq x0 x3 x4 x5 x6 x7 x8]
  refine slab_layer _ _ _ _ b ?_
  rw [v9_eq x0 x3 x4 x5 x6 x7 x8]
  refine slab_relu _ _ b ?_
  rw [v8_eq x0 x3 x4 x5 x6 x7 x8]
  refine slab_layer _ _ _ _ b ?_
  rw [v4_eq x0 x3 x4 x5 x6 x7 x8]
  exact slab_relu _ _ b (slab_layer _ _ _ _ b rfl)

end Cert.ReferenceIdeal.Keys

end
-- ==== Proof.LibLossSums.lean ====
/-
  Sums of a block of extended reals, read off the vector operations that form them.

  A rank-3 block `x : [A, B, C]` is summed by three one-axis reductions with two recasts in between
  (`[A, B, C] → [A, B] → [A] → [A, 1] → [1] → [1, 1]`); `rsum3` says the one entry of the result is the triple sum
  `∑ a, ∑ b, ∑ c, x (a, b, c)`. The steps are stated one by one first (`red_last`, `red_mid`, `cast_col`, `red_first`,
  `cast_one`), each at any extents. Then a sum over the whole index set of a rank-3 or rank-5 shape is written as the
  iterated sum over the coordinates (`sum_idx3`, `sum_idx5`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibLossSums

open Idealize.ShloMosaic Idealize.ShloMosaic.ValueIdx

/-! ## One block's sum, step by step -/

/-- The index of a rank-3 block over the rank-2 index `(a, b)` with last coordinate `c` inserted is `(a, b, c)`. -/
theorem lift_last {A B C : Nat} (h : Shape.Reduces ⟨3, ![A, B, C]⟩ [2] ⟨2, ![A, B]⟩) (a : Fin A) (b : Fin B) (c : Fin C) :
    h.lift (ix2 a b) c = ix3 a b c := by
  funext d; refine Fin.ext ?_
  match d with
  | ⟨0, _⟩ => rfl
  | ⟨1, _⟩ => rfl
  | ⟨2, _⟩ => rfl

/-- Summing a rank-3 block over its last axis: at `(a, b)` the result is `∑ c, x (a, b, c)`. -/
theorem red_last {A B C : Nat} (x : FVec Ideal ⟨3, ![A, B, C]⟩ .f32)
    (h : Shape.Reduces ⟨3, ![A, B, C]⟩ [2] ⟨2, ![A, B]⟩) (hφ : FKind.Formats .f32)
    (hacc : (0x00000000#32 : BitVec 32) = 0x00000000#32) (a : Fin A) (b : Fin B) :
    multiReduction (F := Ideal) .add [2] ⟨2, ![A, B]⟩ x 0x00000000#32 h hφ hacc (ix2 a b)
      = ∑ c : Fin C, x (ix3 a b c) := by
  refine (Ideal.multiReduction_add_single x 0x00000000#32 h hφ hacc (ix2 a b)).trans ?_
  exact Finset.sum_congr rfl fun c _ => congrArg x (lift_last h a b c)

/-- The index of a rank-2 block over the rank-1 index `a` with last coordinate `b` inserted is `(a, b)`. -/
theorem lift_mid {A B : Nat} (h : Shape.Reduces ⟨2, ![A, B]⟩ [1] ⟨1, ![A]⟩) (a : Fin A) (b : Fin B) :
    h.lift (ix1 a) b = ix2 a b := by
  funext d; refine Fin.ext ?_
  match d with
  | ⟨0, _⟩ => rfl
  | ⟨1, _⟩ => rfl

/-- Summing a rank-2 block over its last axis: at `a` the result is `∑ b, y (a, b)`. -/
theorem red_mid {A B : Nat} (y : FVec Ideal ⟨2, ![A, B]⟩ .f32)
    (h : Shape.Reduces ⟨2, ![A, B]⟩ [1] ⟨1, ![A]⟩) (hφ : FKind.Formats .f32)
    (hacc : (0x00000000#32 : BitVec 32) = 0x00000000#32) (a : Fin A) :
    multiReduction (F := Ideal) .add [1] ⟨1, ![A]⟩ y 0x00000000#32 h hφ hacc (ix1 a)
      = ∑ b : Fin B, y (ix2 a b) := by
  refine (Ideal.multiReduction_add_single y 0x00000000#32 h hφ hacc (ix1 a)).trans ?_
  exact Finset.sum_congr rfl fun b _ => congrArg y (lift_mid h a b)

/-- The index of an `[A, 1]` block over the one index of `[1]` with first coordinate `a` inserted is `(a, 0)`. -/
theorem lift_first {A : Nat} (h : Shape.Reduces ⟨2, ![A, 1]⟩ [0] ⟨1, ![1]⟩) (j : (⟨1, ![1]⟩ : Shape).Idx) (a : Fin A) :
    h.lift j a = ix2 a (0 : Fin 1) := by
  funext d; refine Fin.ext ?_
  match d with
  | ⟨0, _⟩ => rfl
  | ⟨1, hd⟩ =>
    have hlt : (h.lift j a ⟨1, hd⟩).val < 1 := (h.lift j a ⟨1, hd⟩).isLt
    show (h.lift j a ⟨1, hd⟩).val = 0
    omega

/-- Summing an `[A, 1]` column over its first axis: the one entry of the result is `∑ a, z (a, 0)`. -/
theorem red_first {A : Nat} (z : FVec Ideal ⟨2, ![A, 1]⟩ .f32)
    (h : Shape.Reduces ⟨2, ![A, 1]⟩ [0] ⟨1, ![1]⟩) (hφ : FKind.Formats .f32)
    (hacc : (0x00000000#32 : BitVec 32) = 0x00000000#32) (j : (⟨1, ![1]⟩ : Shape).Idx) :
    multiReduction (F := Ideal) .add [0] ⟨1, ![1]⟩ z 0x00000000#32 h hφ hacc j
      = ∑ a : Fin A, z (ix2 a (0 : Fin 1)) := by
  refine (Ideal.multiReduction_add_single z 0x00000000#32 h hφ hacc j).trans ?_
  exact Finset.sum_congr rfl fun a _ => congrArg z (lift_first h j a)

/-- A vector `[A]` recast as a column `[A, 1]` reads, at `(a, 0)`, the vector at `a`. -/
theorem cast_col {α : Type} {A : Nat} (w : (⟨1, ![A]⟩ : Shape).Idx → α) (h : Shape.ShapeCasts ⟨1, ![A]⟩ ⟨2, ![A, 1]⟩) (a : Fin A) :
    shapeCast ⟨2, ![A, 1]⟩ w h (ix2 a (0 : Fin 1)) = w (ix1 a) := by
  refine shapeCast_apply w h _ (ix1 a) ?_
  rw [Shape.rowMajor_val_one, Shape.rowMajor_val_two]
  show a.val = a.val * 1 + 0
  omega

/-- A one-entry vector `[1]` recast as `[1, 1]` reads, at any index, the entry at any index. -/
theorem cast_one {α : Type} (w : (⟨1, ![1]⟩ : Shape).Idx → α) (h : Shape.ShapeCasts ⟨1, ![1]⟩ ⟨2, ![1, 1]⟩)
    (i : (⟨2, ![1, 1]⟩ : Shape).Idx) (j : (⟨1, ![1]⟩ : Shape).Idx) :
    shapeCast ⟨2, ![1, 1]⟩ w h i = w j := by
  refine shapeCast_apply w h i j ?_
  have h1 : ((⟨1, ![1]⟩ : Shape).rowMajor j).val < 1 := ((⟨1, ![1]⟩ : Shape).rowMajor j).isLt
  have h2 : ((⟨2, ![1, 1]⟩ : Shape).rowMajor i).val < 1 := ((⟨2, ![1, 1]⟩ : Shape).rowMajor i).isLt
  omega

/-- THE BLOCK SUM. A rank-3 block `x : [A, B, C]` summed over its last axis, then over the last axis of the `[A, B]`
    result, the `[A]` result recast as a column `[A, 1]`, summed over its first axis and the `[1]` result recast as
    `[1, 1]`: the one entry of the result is the triple sum `∑ a, ∑ b, ∑ c, x (a, b, c)`. No accumulator term is left:
    each reduction starts from the neutral word of addition. -/
theorem rsum3 {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 e2 e3 : (0x00000000#32 : BitVec 32) = 0x00000000#32)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) := by
  rw [cast_one _ c2 i (ix1 0), red_first]
  refine Finset.sum_congr rfl fun a _ => ?_
  rw [cast_col, red_mid]
  exact Finset.sum_congr rfl fun b _ => red_last x h1 f1 e1 a b

/-- The block sum `rsum3` with each accumulator's proof typed as the reduction's own argument is (the word is the
    neutral word of addition at `f32`): the same triple sum. -/
theorem rsum3_neutral {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 : (0x00000000#32 : BitVec 32) = FKind.add.neutral .f32 f1)
    (e2 : (0x00000000#32 : BitVec 32) = FKind.add.neutral .f32 f2) (e3 : (0x00000000#32 : BitVec 32) = FKind.add.neutral .f32 f3)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) :=
  rsum3 x h1 h2 c1 h3 c2 f1 f2 f3 rfl rfl rfl i

/-! ## Sums over index sets of rank 3 and 5 as iterated sums over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Cert.LibLossSums

end
-- ==== Proof.LibPlaneSum.lean ====
/-
  A host sum over the two trailing axes of a rank-3 array, read at an index — general in the extents.

  Summing an [A, B, C] array over axes 1 and 2 leaves an [A] vector whose entry a is the initial value plus the sum of
  the whole a-th plane: the source indices that drop to a are exactly the (a, p, q), so the filtered sum over the index
  set — written as the triple sum over the coordinates — is the double sum over p and q.
-/
import Idealize.ShloMosaic.PureOps.Ideal.Laws
import Idealize.ShloMosaic.PureOps.Reduce
import Idealize.ShloMosaic.Lib.ValueIdx
import Idealize.ShloMosaic.Lib.IdealHost
import proofs.«155353_j18176301597397_1_alg».proof.Proof.LibLossSums

noncomputable section

open scoped BigOperators

namespace Cert.LibPlaneSum

open Idealize.ShloMosaic Idealize.ShloMosaic.ValueIdx

/-- Dropping axes 1 and 2 of (a', p, q) leaves a'. -/
theorem drop_plane {A B C : ℕ} (h : (⟨3, ![A, B, C]⟩ : Shape).ReducesTo [1, 2] ⟨1, ![A]⟩) (a' : Fin A) (p : Fin B) (q : Fin C) :
    h.drop (ix3 a' p q) = ix1 a' := by
  funext c
  match c with
  | ⟨0, _⟩ => exact Fin.ext (Shape.ReducesTo.drop_apply_val_of_eq h (ix3 a' p q) 0 0 (by exact Nat.one_pos) (by rfl))

/-- THE PLANE SUM: a host reduce with add over axes 1 and 2 of an [A, B, C] array is, at a, the initial value plus
    the double sum over the a-th plane. -/
theorem hostPlaneSum_apply {A B C : ℕ} (h : (⟨3, ![A, B, C]⟩ : Shape).ReducesTo [1, 2] ⟨1, ![A]⟩)
    (x : (⟨3, ![A, B, C]⟩ : Shape).Idx → EReal) (init : EReal) (a : Fin A) :
    Ideal.hostReduceAdd h x init (ix1 a) = init + ∑ p : Fin B, ∑ q : Fin C, x (ix3 a p q) := by
  unfold Ideal.hostReduceAdd
  refine congrArg (init + ·) ?_
  rw [Finset.sum_filter, Cert.LibLossSums.sum_idx3]
  rw [Finset.sum_eq_single a]
  · refine Finset.sum_congr rfl fun p _ => Finset.sum_congr rfl fun q _ => ?_
    rw [if_pos (drop_plane h a p q)]
  · intro a' _ hne
    refine Finset.sum_eq_zero fun p _ => Finset.sum_eq_zero fun q _ => ?_
    rw [if_neg]
    intro hd
    rw [drop_plane h a' p q] at hd
    exact hne (by have := congrFun hd 0; exact this)
  · intro hn; exact absurd (Finset.mem_univ a) hn

end Cert.LibPlaneSum

end
-- ==== Proof.ReferenceAttention.lean ====
/-
  The reference's attention table and slot updates, entry by entry.

  The reference works on whole arrays: the logits are a batched contraction of the slots (repeated over the batch) with
  the keys, times the scale; a sum over the last axis gives the row sums and a sum over the last two axes the total of
  each batch element, both repeated back over [128, 64, 1024]; the logistic function is spelled 1 / (1 + exp(−z)); the
  attention rows are summed again, ε is added, and the quotient is contracted with the values.  Read at an index
  (b, i, j) every stage only sees batch element b, and there it is the specification's formula.  (The reference
  repeats this computation three times without feeding a result back; its results are the third copy's.)
-/
import proofs.«155353_j18176301597397_1_alg».proof.Proof.Gen.ReferenceIdeal.Read
import proofs.«155353_j18176301597397_1_alg».proof.Proof.SlotAttention
import proofs.«155353_j18176301597397_1_alg».proof.Proof.ReferenceKeys
import proofs.«155353_j18176301597397_1_alg».proof.Proof.LibPlaneSum
import Idealize.ShloMosaic.Lib.ValueIdx
import Idealize.ShloMosaic.Lib.IdealHost
import Idealize.ShloMosaic.PureOps.Ideal.Laws
import Idealize.ShloMosaic.PureOps.IdealRules

noncomputable section

open scoped BigOperators

namespace Cert.ReferenceIdeal.Attention

open Cert.ReferenceIdeal Cert.ReferenceIdeal.Gen Cert.ReferenceIdeal.Read Idealize.ShloMosaic Idealize.ShloMosaic.ValueIdx Cert.SlotAttention

variable (x0 x1 : (⟨S128x1024x512, .f32⟩ : BufTy).Contents (Elt Ideal)) (x2 : (⟨S1x64x512, .f32⟩ : BufTy).Contents (Elt Ideal)) (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))

/-- The specification's logits table of batch element b. -/
abbrev Lt (b : Fin 128) : Fin 64 → Fin 1024 → EReal :=
  logits (slots x2) (keys (slab x0 b) (mat x3) (vec x4) (mat x5) (vec x6) (mat x7) (vec x8))

/-- The scaled logits at y = (b, i, j). -/
theorem v65_at (y : S128x64x1024.Idx) :
    val_main_v65 (F := Ideal) x0 x2 x3 x4 x5 x6 x7 x8 y = Lt x0 x2 x3 x4 x5 x6 x7 x8 (y 0) (y 1) (y 2) := by
  rw [val_main_v65_apply, val_main_v63_apply, val_main_v64_apply, val_main_cst_13_apply]
  show (∑ k : Fin 512, val_main_v14 (F := Ideal) x2 (lidx_main_v63 y k)
        * val_main_v13 (F := Ideal) x0 x3 x4 x5 x6 x7 x8 (ridx_main_v63 y k)) * Ideal.ofBits .f32 0x3D3504F3#32
    = (∑ d : Fin 512, slots x2 (y 1) d * keys (slab x0 (y 0)) (mat x3) (vec x4) (mat x5) (vec x6) (mat x7) (vec x8) (y 2) d) * scale
  refine congrArg₂ (· * ·) (Finset.sum_congr rfl fun k _ => congrArg₂ (· * ·) ?_ ?_) rfl
  · rw [val_main_v14_apply]
    exact congrArg x2 (show idx_main_v14 (lidx_main_v63 y k) = (ix3 (0 : Fin 1) (y 1) k : S1x64x512.Idx) from by idx_eq)
  · refine Eq.trans (congrArg (val_main_v13 (F := Ideal) x0 x3 x4 x5 x6 x7 x8)
      (show ridx_main_v63 y k = (ix3 (y 0) (y 2) k : S128x1024x512.Idx) from by idx_eq)) ?_
    exact congrFun (congrFun (Cert.ReferenceIdeal.Keys.slab_keys x0 x3 x4 x5 x6 x7 x8 (y 0)) (y 2)) k

/-- The row sums at y = (b, i). -/
theorem v66_at (y : S128x64.Idx) :
    val_main_v66 (F := Ideal) x0 x2 x3 x4 x5 x6 x7 x8 y = ∑ k : Fin 1024, Lt x0 x2 x3 x4 x5 x6 x7 x8 (y 0) (y 1) k := by
  rw [val_main_v66_apply, val_main_cst_14_apply]
  show Ideal.ofBits .f32 0x00000000#32 + _ = _
  rw [Ideal.ofBits_zero_f32, zero_add]
  refine Finset.sum_congr rfl fun k _ => ?_
  rw [v65_at]
  rfl

/-- The total of batch element b's table, at y = (b). -/
theorem v68_at (y : S128.Idx) :
    val_main_v68 (F := Ideal) x0 x2 x3 x4 x5 x6 x7 x8 y = ∑ p : Fin 64, ∑ q : Fin 1024, Lt x0 x2 x3 x4 x5 x6 x7 x8 (y 0) p q := by
  obtain ⟨b, rfl⟩ : ∃ b : Fin 128, y = ix1 b := ⟨y 0, eq_ix1 y⟩
  unfold val_main_v68
  rw [hostReduceAdd_apply, Cert.LibPlaneSum.hostPlaneSum_apply, val_main_cst_15_apply]
  show Ideal.ofBits .f32 0x00000000#32 + _ = _
  rw [Ideal.ofBits_zero_f32, zero_add]
  refine Finset.sum_congr rfl fun p _ => Finset.sum_congr rfl fun q _ => ?_
  rw [v65_at]

/-- THE REFERENCE'S ATTENTION TABLE at y = (b, i, j). -/
theorem v79_at (y : S128x64x1024.Idx) :
    val_main_v79 (F := Ideal) x0 x2 x3 x4 x5 x6 x7 x8 y = attention (Lt x0 x2 x3 x4 x5 x6 x7 x8 (y 0)) (y 1) (y 2) := by
  rw [val_main_v79_apply, val_main_v78_apply, val_main_cst_17_apply, val_main_v77_apply, val_main_v76_apply,
    val_main_cst_16_apply, val_main_v75_apply, val_main_v74_apply, val_main_v73_apply, val_main_v71_apply,
    val_main_v72_apply, val_main_v70_apply, val_main_v69_apply, val_main_v67_apply, v65_at, v66_at, v68_at]
  unfold attention
  show Ideal.div (Ideal.ofBits .f32 0x3F800000#32) (Ideal.ofBits .f32 0x3F800000#32
      + Ideal.exp (-(Ideal.div (Lt x0 x2 x3 x4 x5 x6 x7 x8 (y 0) (y 1) (y 2)) (∑ k : Fin 1024, Lt x0 x2 x3 x4 x5 x6 x7 x8 (y 0) (y 1) k)
          * ∑ p : Fin 64, ∑ q : Fin 1024, Lt x0 x2 x3 x4 x5 x6 x7 x8 (y 0) p q))) = Ideal.logistic _
  rw [show Ideal.ofBits .f32 0x3F800000#32 = 1 from IdealRules.sign_bit.ideal_onePat .f32]
  rfl

/-- THE REFERENCE'S SLOT UPDATES at y = (b, i, d). -/
theorem v86_at (y : S128x64x512.Idx) :
    val_main_v86 (F := Ideal) x0 x1 x2 x3 x4 x5 x6 x7 x8 y
      = updates (attention (Lt x0 x2 x3 x4 x5 x6 x7 x8 (y 0))) (slab x1 (y 0)) (y 1) (y 2) := by
  rw [val_main_v86_apply]
  unfold updates
  refine Finset.sum_congr rfl fun k _ => ?_
  have e2 : ridx_main_v86 y k = ix3 (y 0) k (y 2) := by idx_eq
  rw [e2, val_main_v85_apply, val_main_v84_apply, val_main_v83_apply, val_main_v82_apply, val_main_cst_19_apply,
    val_main_v81_apply, val_main_v80_apply, val_main_cst_18_apply, v79_at]
  simp only [v79_at]
  show Ideal.div (attention (Lt x0 x2 x3 x4 x5 x6 x7 x8 (y 0)) (y 1) k)
      ((Ideal.ofBits .f32 0x00000000#32 + ∑ k' : Fin 1024, attention (Lt x0 x2 x3 x4 x5 x6 x7 x8 (y 0)) (y 1) k') + Ideal.ofBits .f32 0x322BCC77#32)
      * x1 (ix3 (y 0) k (y 2)) = _
  rw [Ideal.ofBits_zero_f32, zero_add]
  rfl

end Cert.ReferenceIdeal.Attention

end
-- ==== Proof.lean ====
/-
  Slot attention, fused against whole-array: the two programs compute one function over the extended reals.

  The kernel works one batch element per grid point: three dense layers turn the element's 1024 tokens into keys
  (x ↦ x·Wᵀ + b, the first two followed by max(·, 0)); the 64 slots' logits against the keys are scaled, divided by
  their row sums and multiplied by the table's total, and passed through the logistic function — the attention table;
  and the slot updates average the element's value rows with weights attention / (row sum + ε).  The reference does the
  same on the whole arrays, the sums taken along array axes and the logistic spelled 1 / (1 + exp(−z)).

  Exact arithmetic makes the two agree term by term: a change of float format is the identity, a matrix product into
  a zero accumulator and a contraction are the same finite sum, a sum along one axis is the same sum whichever way the
  result is laid out, the total of a 64 × 1024 table is the sum of its row sums, and the logistic function is
  1 / (1 + exp(−z)) by definition.  No step moves a factor across a sum or cancels anything, so nothing is asked of the
  inputs: the precondition is never opened.

  The parts: `SlotAttention` states the function index by index; `KernelKeys`, `KernelAttention` read the body's
  arithmetic at an entry and `KernelArrays` assembles the 128 written-back blocks into the two result arrays;
  `ReferenceKeys`, `ReferenceAttention` read the reference's stages at an entry.  Both programs' runs, and the frames
  of the two kernels, come from the generated modules.
-/
import proofs.«155353_j18176301597397_1_alg».proof.Defs
import proofs.«155353_j18176301597397_1_alg».proof.Proof.Gen.Kernel
import proofs.«155353_j18176301597397_1_alg».proof.Proof.Gen.Kernel.Frame
import proofs.«155353_j18176301597397_1_alg».proof.Proof.Gen.KernelIdeal
import proofs.«155353_j18176301597397_1_alg».proof.Proof.Gen.KernelIdeal.Frame
import proofs.«155353_j18176301597397_1_alg».proof.Proof.Gen.KernelIdeal.Value
import proofs.«155353_j18176301597397_1_alg».proof.Proof.Gen.ReferenceIdeal
import proofs.«155353_j18176301597397_1_alg».proof.Proof.Gen.ReferenceIdeal.Run
import proofs.«155353_j18176301597397_1_alg».proof.Proof.Gen.ReferenceIdeal.Read
import proofs.«155353_j18176301597397_1_alg».proof.Proof.Gen.Pre_finite_inputs
import proofs.«155353_j18176301597397_1_alg».proof.Proof.KernelArrays
import proofs.«155353_j18176301597397_1_alg».proof.Proof.ReferenceAttention
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, the kernel's two result arrays and the reference's are the specification's update and
    attention arrays of those arguments. -/
theorem algebraic : Cert.algebraic_KernelIdeal_ReferenceIdeal := by
  intro m ρ m' ρ' _ hagree
  refine ⟨fun c => Cert.KernelIdeal.Arrays.updOut m c, fun c => Cert.KernelIdeal.Arrays.attnOut m c,
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v86_eq, a0, a1, a2, a3, a4, a5, a6, a7, a8]
    funext y
    exact Cert.ReferenceIdeal.Attention.v86_at _ _ _ _ _ _ _ _ _ y
  · obtain ⟨a0, a1, a2, a3, a4, a5, a6, a7, a8⟩ := hagree c
    rw [(h c).2.1, Cert.ReferenceIdeal.Read.val_main_v79_eq, a0, a2, a3, a4, a5, a6, a7, a8]
    funext y
    exact Cert.ReferenceIdeal.Attention.v79_at _ _ _ _ _ _ _ _ y

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
